-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x16 : Shape := ⟨2, ![1024, 16]⟩
abbrev S16 : Shape := ⟨1, ![16]⟩
abbrev S16x1024 : Shape := ⟨2, ![16, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_
  bcast_S_S16x1024 : S_.BroadcastsInDim S16x1024 (![] : Fin 0 → Fin S16x1024.rank)
  reducesTo_S16x1024_S_d0_1 : S16x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S16x1024 .f32) (main_arg5 : FVec F S1024 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x1024 .f32 := Host.absf main_arg4
  let main_cst_6 : FVec F S_ .f32 := constant S_ .f32 0x7F800000#32
  let main_v20 : FVec F S16x1024 .f32 := broadcastInDim S16x1024 ![] bcast_S_S16x1024 main_cst_6
  let main_v21 : IVec S16x1024 1 := cmpf .olt main_v19 main_v20
  let main_c_7 : IVec S_ 1 := constantI S_ 1 1#1
  let main_v22 : IVec S_ 1 := (fun x v => Host.reduce IntOp.andi x v reducesTo_S16x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x4096x1024 .f32) (main_arg1 : FVec F S1024x16 .f32) (main_arg2 : FVec F S16 .f32) (main_arg3 : FVec F S16 .f32) (main_arg4 : FVec F S16x1024 .f32) (main_arg5 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x16 .f32 := Host.absf main_arg1
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S8x4096x1024 : Shape := ⟨3, ![8, 4096, 1024]⟩
abbrev S1024x16 : Shape := ⟨2, ![1024, 16]⟩
abbrev S16 : Shape := ⟨1, ![16]⟩
abbrev S16x1024 : Shape := ⟨2, ![16, 1024]⟩
abbrev S1024 : Shape := ⟨1, ![1024]⟩
abbrev S32768x1024 : Shape := ⟨2, ![32768, 1024]⟩
abbrev S1x16 : Shape := ⟨2, ![1, 16]⟩
abbrev S1x1024 : Shape := ⟨2, ![1, 1024]⟩
abbrev S1024x1024 : Shape := ⟨2, ![1024, 1024]⟩

abbrev nBuf : Space → Nat
  | .hbm => 14
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S1024x16, .f32⟩
  | .hbm, ⟨2, _⟩ => ⟨S16, .f32⟩
  | .hbm, ⟨3, _⟩ => ⟨S16, .f32⟩
  | .hbm, ⟨4, _⟩ => ⟨S16x1024, .f32⟩
  | .hbm, ⟨5, _⟩ => ⟨S1024, .f32⟩
  | .hbm, ⟨6, _⟩ => ⟨S32768x1024, .f32⟩
  | .hbm, ⟨7, _⟩ => ⟨S1024x16, .bf16⟩
  | .hbm, ⟨8, _⟩ => ⟨S16x1024, .bf16⟩
  | .hbm, ⟨9, _⟩ => ⟨S1x16, .f32⟩
  | .hbm, ⟨10, _⟩ => ⟨S1x16, .f32⟩
  | .hbm, ⟨11, _⟩ => ⟨S1x1024, .f32⟩
  | .hbm, ⟨12, _⟩ => ⟨S32768x1024, .f32⟩
  | .hbm, ⟨13, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x16, .bf16⟩
  | .local _ .vmem, ⟨3, _⟩ => ⟨S1x16, .f32⟩
  | .local _ .vmem, ⟨4, _⟩ => ⟨S1x16, .f32⟩
  | .local _ .vmem, ⟨5, _⟩ => ⟨S16x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x4096x1024_S32768x1024 : S8x4096x1024.ShapeCasts S32768x1024
  bitsLt_bf16_f32 : FTy.bits .bf16 < FTy.bits .f32
  shapeCasts_S16_S1x16 : S16.ShapeCasts S1x16
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S32768x1024_S8x4096x1024 : S32768x1024.ShapeCasts S8x4096x1024
  dot_S1024x1024_S1024x16_S1024x16_1_0_0_1_n_n_wf : DotDims.WF S1024x1024 S1024x16 S1024x16 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S1024x16.size a
  hwx0_1 : ∀ i : grid0.Coords, EltTy.bits .bf16 = 32 ∨ (Rect.block (s := S1024x16) S1024x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1024.size a ≤ S16x1024.size a
  hwx0_4 : ∀ i : grid0.Coords, EltTy.bits .bf16 = 32 ∨ (Rect.block (s := S16x1024) S16x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S32768x1024.size a
  hwx0_6 : ∀ i : grid0.Coords, EltTy.bits .f32 = 32 ∨ (Rect.block (s := S32768x1024) S1024x1024.size (cc0_transform_6 i) (hinb0_6 i)).WholeWords (EltTy.packing .f32)

variable [Facts₀]

def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S16x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x16 : Shape := ⟨2, ![1024, 16]⟩
abbrev S16 : Shape := ⟨1, ![16]⟩
abbrev S16x1024 : Shape := ⟨2, ![16, 1024]⟩
abbrev S1024 : Shape := ⟨1, ![1024]⟩
abbrev S8x4096x16 : Shape := ⟨3, ![8, 4096, 16]⟩
abbrev S1x1x16 : Shape := ⟨3, ![1, 1, 16]⟩
abbrev S_ : Shape := ⟨0, ![]⟩
abbrev S1x1x1024 : Shape := ⟨3, ![1, 1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x16, .f32⟩
  | .hbm, ⟨2, _⟩ => ⟨S16, .f32⟩
  | .hbm, ⟨3, _⟩ => ⟨S16, .f32⟩
  | .hbm, ⟨4, _⟩ => ⟨S16x1024, .f32⟩
  | .hbm, ⟨5, _⟩ => ⟨S1024, .f32⟩
  | .hbm, ⟨6, _⟩ => ⟨S8x4096x16, .f32⟩
  | .hbm, ⟨7, _⟩ => ⟨S1x1x16, .f32⟩
  | .hbm, ⟨8, _⟩ => ⟨S8x4096x16, .f32⟩
  | .hbm, ⟨9, _⟩ => ⟨S8x4096x16, .f32⟩
  | .hbm, ⟨10, _⟩ => ⟨S_, .f32⟩
  | .hbm, ⟨11, _⟩ => ⟨S8x4096x16, .f32⟩
  | .hbm, ⟨12, _⟩ => ⟨S8x4096x16, .f32⟩
  | .hbm, ⟨13, _⟩ => ⟨S1x1x16, .f32⟩
  | .hbm, ⟨14, _⟩ => ⟨S8x4096x16, .f32⟩
  | .hbm, ⟨15, _⟩ => ⟨S8x4096x16, .f32⟩
  | .hbm, ⟨16, _⟩ => ⟨S8x4096x16, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S16_S1x1x16_2 : S16.BroadcastsInDim S1x1x16 (![2] : Fin 1 → Fin S1x1x16.rank)
  bcast_S1x1x16_S8x4096x16_0_1_2 : S1x1x16.BroadcastsInDim S8x4096x16 (![0, 1, 2] : Fin 3 → Fin S8x4096x16.rank)
  bcast_S_S8x4096x16 : S_.BroadcastsInDim S8x4096x16 (![] : Fin 0 → Fin S8x4096x16.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S1024x16_S8x4096x16_2_0_01_1_n_n_wf : DotDims.WF S8x4096x1024 S1024x16 S8x4096x16 [2] [0] [0, 1] [1] [] []
  dot_S8x4096x16_S16x1024_S8x4096x1024_2_0_01_1_n_n_wf : DotDims.WF S8x4096x16 S16x1024 S8x4096x1024 [2] [0] [0, 1] [1] [] []

variable [Facts₀]

def dot_S8x4096x1024_S1024x16_S8x4096x16_2_0_01_1_n_n : DotDims S8x4096x1024 S1024x16 S8x4096x16 where
  lhsContracting := [2]
  rhsContracting := [0]
  lhsNonContracting := [0, 1]
  rhsNonContracting := [1]
  lhsBatch := []
  rhsBatch := []
  wf := dot_S8x4096x1024_S1024x16_S8x4096x16_2_0_01_1_n_n_wf
def dot_S8x4096x16_S16x1024_S8x4096x1024_2_0_01_1_n_n : DotDims S8x4096x16 S16x1024 S8x4096x1024 where
  lhsContracting := [2]
  rhsContracting := [0]
  lhsNonContracting := [0, 1]
  rhsNonContracting := [1]
  lhsBatch := []
  rhsBatch := []
  wf := dot_S8x4096x16_S16x1024_S8x4096x1024_2_0_01_1_n_n_wf

class Facts : Prop extends Facts₀ where

variable [Facts]
-- ==== Proof.Spec.lean ====
/-
  The function both programs compute, over the extended reals.

  A token is a pair (b, s) with b < 8, s < 4096; its embedding is the row x[b, s, ·] of 1024 numbers.
  The feed-forward block first projects the token to 16 hidden units,
      h[q] = max (Σ_d x[b, s, d] · W1[d, q] + b1[q], 0),
  then takes the closed-form expectation cos (h[q] + θ[q]) of each unit, and projects back:
      out[b, s, c] = Σ_q cos (h[q] + θ[q]) · W2[q, c] + b2[c].
  The sums are finite sums in the commutative monoid of extended reals, so no order or grouping of the
  terms matters; nothing here needs the entries to be finite.

  The kernel works on the 32768 = 8 · 4096 tokens laid out as rows, row r being the token
  (r / 4096, r % 4096); `outRows` is the same function read at a row.
-/
import Idealize.ShloMosaic.PureOps.Ideal
import Idealize.ShloMosaic.Lib.ValueIdx

noncomputable section

namespace Cert.Ffn

open Idealize.ShloMosaic Idealize.ShloMosaic.ValueIdx

/-- Hidden unit `q` of token `(b, s)` after the nonlinearity: cos (max (x[b,s,·] · W1[·,q] + b1[q], 0) + θ[q]). -/
def hidden (x : (⟨3, ![8, 4096, 1024]⟩ : Shape).Idx → EReal) (W1 : (⟨2, ![1024, 16]⟩ : Shape).Idx → EReal)
    (b1 θ : (⟨1, ![16]⟩ : Shape).Idx → EReal) (b : Fin 8) (s : Fin 4096) (q : Fin 16) : EReal :=
  Ideal.cos (max ((∑ d : Fin 1024, x (ix3 b s d) * W1 (ix2 d q)) + b1 (ix1 q)) 0 + θ (ix1 q))

/-- Output channel `c` of token `(b, s)`: the hidden units projected back, plus the bias. -/
def token (x : (⟨3, ![8, 4096, 1024]⟩ : Shape).Idx → EReal) (W1 : (⟨2, ![1024, 16]⟩ : Shape).Idx → EReal)
    (b1 θ : (⟨1, ![16]⟩ : Shape).Idx → EReal) (W2 : (⟨2, ![16, 1024]⟩ : Shape).Idx → EReal)
    (b2 : (⟨1, ![1024]⟩ : Shape).Idx → EReal) (b : Fin 8) (s : Fin 4096) (c : Fin 1024) : EReal :=
  (∑ q : Fin 16, hidden x W1 b1 θ b s q * W2 (ix2 q c)) + b2 (ix1 c)

/-- The result array, indexed (batch, position, channel). -/
def out (x : (⟨3, ![8, 4096, 1024]⟩ : Shape).Idx → EReal) (W1 : (⟨2, ![1024, 16]⟩ : Shape).Idx → EReal)
    (b1 θ : (⟨1, ![16]⟩ : Shape).Idx → EReal) (W2 : (⟨2, ![16, 1024]⟩ : Shape).Idx → EReal)
    (b2 : (⟨1, ![1024]⟩ : Shape).Idx → EReal) : (⟨3, ![8, 4096, 1024]⟩ : Shape).Idx → EReal :=
  fun i => token x W1 b1 θ W2 b2 (i 0) (i 1) (i 2)

/-- The same token function over the operands as the kernel holds them: the tokens as the 32768 rows of a matrix X,
    the biases and the phase as one-row matrices. Row r, channel c. -/
def rowToken (X : (⟨2, ![32768, 1024]⟩ : Shape).Idx → EReal) (W1 : (⟨2, ![1024, 16]⟩ : Shape).Idx → EReal)
    (B1 TH : (⟨2, ![1, 16]⟩ : Shape).Idx → EReal) (W2 : (⟨2, ![16, 1024]⟩ : Shape).Idx → EReal)
    (B2 : (⟨2, ![1, 1024]⟩ : Shape).Idx → EReal) (r : Fin 32768) (c : Fin 1024) : EReal :=
  (∑ q : Fin 16, Ideal.cos (max ((∑ d : Fin 1024, X (ix2 r d) * W1 (ix2 d q)) + B1 (ix2 (0 : Fin 1) q)) 0
      + TH (ix2 (0 : Fin 1) q)) * W2 (ix2 q c)) + B2 (ix2 (0 : Fin 1) c)

/-- The batch a row belongs to. -/
def rowBatch (r : Fin 32768) : Fin 8 := ⟨r.val / 4096, by have := r.isLt; omega⟩
/-- The position of a row inside its batch. -/
def rowPos (r : Fin 32768) : Fin 4096 := ⟨r.val % 4096, Nat.mod_lt _ (by decide)⟩

/-- The same result with the tokens laid out as 32768 rows: row `r` is token `(r / 4096, r % 4096)`. -/
def outRows (x : (⟨3, ![8, 4096, 1024]⟩ : Shape).Idx → EReal) (W1 : (⟨2, ![1024, 16]⟩ : Shape).Idx → EReal)
    (b1 θ : (⟨1, ![16]⟩ : Shape).Idx → EReal) (W2 : (⟨2, ![16, 1024]⟩ : Shape).Idx → EReal)
    (b2 : (⟨1, ![1024]⟩ : Shape).Idx → EReal) : (⟨2, ![32768, 1024]⟩ : Shape).Idx → EReal :=
  fun j => token x W1 b1 θ W2 b2 (rowBatch (j 0)) (rowPos (j 0)) (j 1)

end Cert.Ffn

end
-- ==== Proof.RefSpec.lean ====
/-
  The reference computes the specification: read one operation at a time, its result at an index (b, s, c) is
  Σ_q cos (max (Σ_d x[b,s,d] · W1[d,q] + b1[q], 0) + θ[q]) · W2[q,c] + b2[c]; the broadcasts only re-index the biases.
-/
import proofs.«168112_j65481071407276_2_alg».proof.Proof.Gen.ReferenceIdeal.Read
import proofs.«168112_j65481071407276_2_alg».proof.Proof.Spec

noncomputable section

namespace Cert.ReferenceIdeal.RefValue

open Cert.ReferenceIdeal Cert.ReferenceIdeal.Read Idealize.ShloMosaic Idealize.ShloMosaic.ValueIdx

/-! ## Where each operation reads its operands, at an index given by its coordinates -/

/-- The first product at (b, s, q) pairs x[b, s, d] … -/
theorem lidx0 (b : Fin 8) (s : Fin 4096) (q : Fin 16) (d : Fin 1024) : lidx_main_v0 (ix3 b s q) d = ix3 b s d :=
  funext fun a => Fin.ext (by match a with | ⟨0, _⟩ => rfl | ⟨1, _⟩ => rfl | ⟨2, _⟩ => rfl)
/-- … with W1[d, q]. -/
theorem ridx0 (b : Fin 8) (s : Fin 4096) (q : Fin 16) (d : Fin 1024) : ridx_main_v0 (ix3 b s q) d = ix2 d q :=
  funext fun a => Fin.ext (by match a with | ⟨0, _⟩ => rfl | ⟨1, _⟩ => rfl)
/-- The first bias broadcast over tokens reads b1[q]. -/
theorem idx12 (b : Fin 8) (s : Fin 4096) (q : Fin 16) : idx_main_v1 (idx_main_v2 (ix3 b s q)) = ix1 q :=
  funext fun a => Fin.ext (by match a with | ⟨0, _⟩ => rfl)
/-- The phase broadcast over tokens reads θ[q]. -/
theorem idx56 (b : Fin 8) (s : Fin 4096) (q : Fin 16) : idx_main_v5 (idx_main_v6 (ix3 b s q)) = ix1 q :=
  funext fun a => Fin.ext (by match a with | ⟨0, _⟩ => rfl)
/-- The second product at (b, s, c) pairs the hidden unit (b, s, q) … -/
theorem lidx9 (b : Fin 8) (s : Fin 4096) (c : Fin 1024) (q : Fin 16) : lidx_main_v9 (ix3 b s c) q = ix3 b s q :=
  funext fun a => Fin.ext (by match a with | ⟨0, _⟩ => rfl | ⟨1, _⟩ => rfl | ⟨2, _⟩ => rfl)
/-- … with W2[q, c]. -/
theorem ridx9 (b : Fin 8) (s : Fin 4096) (c : Fin 1024) (q : Fin 16) : ridx_main_v9 (ix3 b s c) q = ix2 q c :=
  funext fun a => Fin.ext (by match a with | ⟨0, _⟩ => rfl | ⟨1, _⟩ => rfl)
/-- The output bias broadcast over tokens reads b2[c]. -/
theorem idx1011 (b : Fin 8) (s : Fin 4096) (c : Fin 1024) : idx_main_v10 (idx_main_v11 (ix3 b s c)) = ix1 c :=
  funext fun a => Fin.ext (by match a with | ⟨0, _⟩ => rfl)

/-! ## The stages are the specification -/

/-- The reference's value after the cosine, at hidden unit (b, s, q). -/
theorem hidden_eq (x0 : S8x4096x1024.Idx → EReal) (x1 : S1024x16.Idx → EReal) (x2 x3 : S16.Idx → EReal)
    (b : Fin 8) (s : Fin 4096) (q : Fin 16) :
    val_main_v8 (F := Ideal) x0 x1 x2 x3 (ix3 b s q) = Cert.Ffn.hidden x0 x1 x2 x3 b s q := by
  rw [val_main_v8_apply, val_main_v7_apply, val_main_v4_apply, val_main_v3_apply, val_main_v0_apply,
    val_main_v2_apply, val_main_v1_apply, val_main_call0_v0_apply, val_main_call0_cst_apply,
    val_main_v6_apply, val_main_v5_apply]
  unfold Cert.Ffn.hidden
  simp only [lidx0, ridx0, idx12, idx56, Ideal.hostUnary_cos_def, Ideal.addf_def, Ideal.maximumf_def,
    Ideal.ofBits_def, Ideal.ofBits_zero_f32]

/-- The reference's result is the specification's `out`. -/
theorem result_eq (x0 : S8x4096x1024.Idx → EReal) (x1 : S1024x16.Idx → EReal) (x2 x3 : S16.Idx → EReal)
    (x4 : S16x1024.Idx → EReal) (x5 : S1024.Idx → EReal) :
    val_main_v12 (F := Ideal) x0 x1 x2 x3 x4 x5 = Cert.Ffn.out x0 x1 x2 x3 x4 x5 := by
  funext i
  obtain ⟨b, s, c, rfl⟩ : ∃ (b : Fin 8) (s : Fin 4096) (c : Fin 1024), i = ix3 b s c := ⟨i 0, i 1, i 2, eq_ix3 i⟩
  rw [val_main_v12_apply, val_main_v9_apply, val_main_v11_apply, val_main_v10_apply]
  show _ = Cert.Ffn.token x0 x1 x2 x3 x4 x5 b s c
  unfold Cert.Ffn.token
  simp only [lidx9, ridx9, idx1011, hidden_eq, Ideal.addf_def]

end Cert.ReferenceIdeal.RefValue

end
-- ==== Proof.Body.lean ====
/-
  The kernel body's stored value, read at an entry of its 1024 × 1024 output block.

  The body holds 1024 tokens (the rows of its block of x), projects each to the 16 hidden units with the whole of W1,
  adds b1, clamps at 0, adds θ, takes the cosine, projects back with the whole of W2 and adds b2. Changing the float
  format is the identity on extended reals, a product into a zero accumulator is the plain sum over the contraction
  axis, and a one-row array broadcast over the rows reads its one row. So entry (p, c) of the stored block is
      Σ_q cos (max (Σ_d X[p,d] · W1[d,q] + b1[0,q], 0) + θ[0,q]) · W2[q,c] + b2[0,c].
-/
import proofs.«168112_j65481071407276_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The two matrix products at an entry -/

/-- Row coordinate of the left operand: the output's row. -/
theorem proj1_lhs0 (j : S1024x16.Idx) (k : dot_S1024x1024_S1024x16_S1024x16_1_0_0_1_n_n.contr.Idx) : (dot_S1024x1024_S1024x16_S1024x16_1_0_0_1_n_n.lhsIdx j k 0).val = (j 0).val := by
  unfold DotDims.lhsIdx
  rw [dif_neg (show ¬(0 : Fin S1024x1024.rank) ∈ dot_S1024x1024_S1024x16_S1024x16_1_0_0_1_n_n.lhsBatch by decide), dif_pos (show (0 : Fin S1024x1024.rank) ∈ dot_S1024x1024_S1024x16_S1024x16_1_0_0_1_n_n.lhsNonContracting by decide)]
  rfl
/-- Column coordinate of the left operand: the contraction position. -/
theorem proj1_lhs1 (j : S1024x16.Idx) (k : dot_S1024x1024_S1024x16_S1024x16_1_0_0_1_n_n.contr.Idx) : (dot_S1024x1024_S1024x16_S1024x16_1_0_0_1_n_n.lhsIdx j k 1).val = (k ⟨0, by decide⟩).val :=
  dot_S1024x1024_S1024x16_S1024x16_1_0_0_1_n_n.lhsIdx_val_of_single rfl j k
/-- Row coordinate of the right operand: the contraction position. -/
theorem proj1_rhs0 (j : S1024x16.Idx) (k : dot_S1024x1024_S1024x16_S1024x16_1_0_0_1_n_n.contr.Idx) : (dot_S1024x1024_S1024x16_S1024x16_1_0_0_1_n_n.rhsIdx j k 0).val = (k ⟨0, by decide⟩).val :=
  dot_S1024x1024_S1024x16_S1024x16_1_0_0_1_n_n.rhsIdx_val_of_single rfl j k
/-- Column coordinate of the right operand: the output's column. -/
theorem proj1_rhs1 (j : S1024x16.Idx) (k : dot_S1024x1024_S1024x16_S1024x16_1_0_0_1_n_n.contr.Idx) : (dot_S1024x1024_S1024x16_S1024x16_1_0_0_1_n_n.rhsIdx j k 1).val = (j 1).val := by
  unfold DotDims.rhsIdx
  rw [dif_neg (show ¬(1 : Fin S1024x16.rank) ∈ dot_S1024x1024_S1024x16_S1024x16_1_0_0_1_n_n.rhsBatch by decide), dif_pos (show (1 : Fin S1024x16.rank) ∈ dot_S1024x1024_S1024x16_S1024x16_1_0_0_1_n_n.rhsNonContracting by decide)]
  rfl

/-- The product into a zero accumulator, at (p, c): the sum over the 1024 contraction positions of left[p, k] · right[k, c]. -/
theorem proj1_apply (a : FVec Ideal S1024x1024 .bf16) (w : FVec Ideal S1024x16 .bf16) (p : Fin 1024) (c : Fin 16) :
    matmul dot_S1024x1024_S1024x16_S1024x16_1_0_0_1_n_n none a w (constant (F := Ideal) S1024x16 .f32 0x00000000#32) (ix2 p c)
      = ∑ k : Fin 1024, a (ix2 p k) * w (ix2 k c) := by
  simp only [matmul]
  rw [Ideal.matmul_constant_zero_apply, ← Equiv.sum_comp (contrEquiv1 dot_S1024x1024_S1024x16_S1024x16_1_0_0_1_n_n 1024 rfl rfl).symm]
  refine Finset.sum_congr rfl fun k _ => ?_
  have hk := contrEquiv1_symm_val dot_S1024x1024_S1024x16_S1024x16_1_0_0_1_n_n 1024 rfl rfl k
  have el : dot_S1024x1024_S1024x16_S1024x16_1_0_0_1_n_n.lhsIdx (ix2 p c) ((contrEquiv1 dot_S1024x1024_S1024x16_S1024x16_1_0_0_1_n_n 1024 rfl rfl).symm k) = ix2 p k := funext fun ax => Fin.ext (by
    match ax with
    | ⟨0, _⟩ => exact proj1_lhs0 _ _
    | ⟨1, _⟩ => exact (proj1_lhs1 _ _).trans hk)
  have er : dot_S1024x1024_S1024x16_S1024x16_1_0_0_1_n_n.rhsIdx (ix2 p c) ((contrEquiv1 dot_S1024x1024_S1024x16_S1024x16_1_0_0_1_n_n 1024 rfl rfl).symm k) = ix2 k c := funext fun ax => Fin.ext (by
    match ax with
    | ⟨0, _⟩ => exact (proj1_rhs0 _ _).trans hk
    | ⟨1, _⟩ => exact proj1_rhs1 _ _)
  rw [el, er]

/-- Row coordinate of the left operand: the output's row. -/
theorem proj2_lhs0 (j : S1024x1024.Idx) (k : dot_S1024x16_S16x1024_S1024x1024_1_0_0_1_n_n.contr.Idx) : (dot_S1024x16_S16x1024_S1024x1024_1_0_0_1_n_n.lhsIdx j k 0).val = (j 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
/-- Column coordinate of the left operand: the contraction position. -/
theorem proj2_lhs1 (j : S1024x1024.Idx) (k : dot_S1024x16_S16x1024_S1024x1024_1_0_0_1_n_n.contr.Idx) : (dot_S1024x16_S16x1024_S1024x1024_1_0_0_1_n_n.lhsIdx j k 1).val = (k ⟨0, by decide⟩).val :=
  dot_S1024x16_S16x1024_S1024x1024_1_0_0_1_n_n.lhsIdx_val_of_single rfl j k
/-- Row coordinate of the right operand: the contraction position. -/
theorem proj2_rhs0 (j : S1024x1024.Idx) (k : dot_S1024x16_S16x1024_S1024x1024_1_0_0_1_n_n.contr.Idx) : (dot_S1024x16_S16x1024_S1024x1024_1_0_0_1_n_n.rhsIdx j k 0).val = (k ⟨0, by decide⟩).val :=
  dot_S1024x16_S16x1024_S1024x1024_1_0_0_1_n_n.rhsIdx_val_of_single rfl j k
/-- Column coordinate of the right operand: the output's column. -/
theorem proj2_rhs1 (j : S1024x1024.Idx) (k : dot_S1024x16_S16x1024_S1024x1024_1_0_0_1_n_n.contr.Idx) : (dot_S1024x16_S16x1024_S1024x1024_1_0_0_1_n_n.rhsIdx j k 1).val = (j 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

/-- The product into a zero accumulator, at (p, c): the sum over the 16 contraction positions of left[p, k] · right[k, c]. -/
theorem proj2_apply (a : FVec Ideal S1024x16 .bf16) (w : FVec Ideal S16x1024 .bf16) (p : Fin 1024) (c : Fin 1024) :
    matmul dot_S1024x16_S16x1024_S1024x1024_1_0_0_1_n_n none a w (constant (F := Ideal) S1024x1024 .f32 0x00000000#32) (ix2 p c)
      = ∑ k : Fin 16, a (ix2 p k) * w (ix2 k c) := by
  simp only [matmul]
  rw [Ideal.matmul_constant_zero_apply, ← Equiv.sum_comp (contrEquiv1 dot_S1024x16_S16x1024_S1024x1024_1_0_0_1_n_n 16 rfl rfl).symm]
  refine Finset.sum_congr rfl fun k _ => ?_
  have hk := contrEquiv1_symm_val dot_S1024x16_S16x1024_S1024x1024_1_0_0_1_n_n 16 rfl rfl k
  have el : dot_S1024x16_S16x1024_S1024x1024_1_0_0_1_n_n.lhsIdx (ix2 p c) ((contrEquiv1 dot_S1024x16_S16x1024_S1024x1024_1_0_0_1_n_n 16 rfl rfl).symm k) = ix2 p k := funext fun ax => Fin.ext (by
    match ax with
    | ⟨0, _⟩ => exact proj2_lhs0 _ _
    | ⟨1, _⟩ => exact (proj2_lhs1 _ _).trans hk)
  have er : dot_S1024x16_S16x1024_S1024x1024_1_0_0_1_n_n.rhsIdx (ix2 p c) ((contrEquiv1 dot_S1024x16_S16x1024_S1024x1024_1_0_0_1_n_n 16 rfl rfl).symm k) = ix2 k c := funext fun ax => Fin.ext (by
    match ax with
    | ⟨0, _⟩ => exact (proj2_rhs0 _ _).trans hk
    | ⟨1, _⟩ => exact proj2_rhs1 _ _)
  rw [el, er]

/-! ## The stored block at an entry -/

/-- The cosine of an array, at an index. -/
theorem cos_apply {s : Shape} {φ : FTy} (a : FVec Ideal s φ) (i : s.Idx) : cos a i = Ideal.cos (a i) := rfl

theorem stored_apply (x0 : FVec Ideal S1024x1024 .f32) (x1 : FVec Ideal S1024x16 .bf16) (x2 x3 : FVec Ideal S1x16 .f32)
    (x4 : FVec Ideal S16x1024 .bf16) (x5 : FVec Ideal S1x1024 .f32) (p c : Fin 1024) :
    k0_pay1 (F := Ideal) x0 x1 x2 x3 x4 x5 (ix2 p c)
      = (∑ q : Fin 16, Ideal.cos (max ((∑ d : Fin 1024, x0 (ix2 p d) * x1 (ix2 d q)) + x2 (ix2 (0 : Fin 1) q)) 0
            + x3 (ix2 (0 : Fin 1) q)) * x4 (ix2 q c)) + x5 (ix2 (0 : Fin 1) c) := by
  unfold k0_pay1
  simp only [shapeCast_self]
  rw [addf_apply, proj2_apply, broadcastTo_1b_ab_apply]
  refine congrArg (· + x5 (ix2 (0 : Fin 1) c)) (Finset.sum_congr rfl fun q _ => ?_)
  refine congrArg (· * x4 (ix2 q c)) ?_
  rw [truncf_apply, cos_apply, addf_apply, maximumf_apply, addf_apply, proj1_apply, broadcastTo_1b_ab_apply,
    broadcastTo_1b_ab_apply, broadcast_apply, Ideal.ofBits_def, Ideal.ofBits_zero_f32]
  rfl

end Cert.KernelIdeal.Body

end
-- ==== Proof.Blocks.lean ====
/-
  From what each grid point writes back to the whole output array.

  Grid point t (of 32) handles rows t · 1024 … t · 1024 + 1023: its block of the row array X and of the output are
  those rows, all 1024 channels; the weights and biases are staged whole at every point. So what point t writes back
  is rows t · 1024 … of ONE function of the arrays the region finds (`rowsOf`), and since every row lies in exactly
  the block of point r / 1024, the output array ends holding that function.
-/
import proofs.«168112_j65481071407276_2_alg».proof.Proof.Gen.KernelIdeal.Frame
import proofs.«168112_j65481071407276_2_alg».proof.Proof.Body
import proofs.«168112_j65481071407276_2_alg».proof.Proof.Spec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

/-- The feed-forward block over row-major operands: row r, channel c of the result from the rows X, the weights and
    the one-row biases. -/
def rowsOf (X : S32768x1024.Idx → EReal) (W1 : S1024x16.Idx → EReal) (B1 TH : S1x16.Idx → EReal)
    (W2 : S16x1024.Idx → EReal) (B2 : S1x1024.Idx → EReal) : S32768x1024.Idx → EReal :=
  fun j => Cert.Ffn.rowToken X W1 B1 TH W2 B2 (j 0) (j 1)

variable (m : (ℓ : Loc nD τ sig) → Buf (Elt Ideal) ℓ)

theorem hz : (![0, 0] : Fin 2 → Nat) = fun _ => 0 := funext fun a => by fin_cases a <;> rfl

/-- The printed index maps, decided over the 32 points: the row windows sit at block row t, everything else at block 0. -/
theorem idx_facts : ∀ t : Fin cfg0.N,
    win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem point_lt (t : Fin cfg0.N) : t.val < 32 := lt_of_lt_of_eq t.isLt N_0

/-- Row p of point t's block is row t · 1024 + p of the array. -/
def blockRow (t : Fin cfg0.N) (p : Fin 1024) : Fin 32768 :=
  ⟨t.val * 1024 + p.val, by have := point_lt t; have := p.isLt; omega⟩

/-! ## Each window's block, read where the output's rectangle says -/

theorem read0 (c : Dev nD) (t : Fin cfg0.N) (p d : Fin 1024) :
    iblk m c 0 t (ix2 p d) = V m c main_v0 (ix2 (blockRow t p) d) := by
  obtain ⟨e0, e1, -⟩ := idx_facts t
  show V m c main_v0 (((cfg0.win 0).blk t).view.emb (ix2 p d)) = V m c main_v0 (ix2 (blockRow t p) d)
  refine congrArg _ (funext fun a => Fin.ext ?_)
  match a with
  | ⟨0, _⟩ => show win0_0.index t (0 : Fin 2) * 1024 + 1 * p.val = t.val * 1024 + p.val; omega
  | ⟨1, _⟩ => show win0_0.index t (1 : Fin 2) * 1024 + 1 * d.val = d.val; omega

/-- W1 is staged whole at every point. -/
theorem read1 (c : Dev nD) (t : Fin cfg0.N) (a : Fin 1024) (b : Fin 16) :
    iblk m c 1 t (ix2 a b) = V m c main_v1 (ix2 a b) := by
  have e := idx_facts t
  show V m c main_v1 (((cfg0.win 1).blk t).view.emb (ix2 a b)) = V m c main_v1 (ix2 a b)
  refine congrArg _ (funext fun ax => Fin.ext ?_)
  match ax with
  | ⟨0, _⟩ => show win0_1.index t (0 : Fin 2) * 1024 + 1 * a.val = a.val; omega
  | ⟨1, _⟩ => show win0_1.index t (1 : Fin 2) * 16 + 1 * b.val = b.val; omega

/-- The bias b1 is staged whole at every point. -/
theorem read2 (c : Dev nD) (t : Fin cfg0.N) (a : Fin 1) (b : Fin 16) :
    iblk m c 2 t (ix2 a b) = V m c main_v3 (ix2 a b) := by
  have e := idx_facts t
  show V m c main_v3 (((cfg0.win 2).blk t).view.emb (ix2 a b)) = V m c main_v3 (ix2 a b)
  refine congrArg _ (funext fun ax => Fin.ext ?_)
  match ax with
  | ⟨0, _⟩ => show win0_2.index t (0 : Fin 2) * 1 + 1 * a.val = a.val; omega
  | ⟨1, _⟩ => show win0_2.index t (1 : Fin 2) * 16 + 1 * b.val = b.val; omega

/-- The phase θ is staged whole at every point. -/
theorem read3 (c : Dev nD) (t : Fin cfg0.N) (a : Fin 1) (b : Fin 16) :
    iblk m c 3 t (ix2 a b) = V m c main_v4 (ix2 a b) := by
  have e := idx_facts t
  show V m c main_v4 (((cfg0.win 3).blk t).view.emb (ix2 a b)) = V m c main_v4 (ix2 a b)
  refine congrArg _ (funext fun ax => Fin.ext ?_)
  match ax with
  | ⟨0, _⟩ => show win0_3.index t (0 : Fin 2) * 1 + 1 * a.val = a.val; omega
  | ⟨1, _⟩ => show win0_3.index t (1 : Fin 2) * 16 + 1 * b.val = b.val; omega

/-- W2 is staged whole at every point. -/
theorem read4 (c : Dev nD) (t : Fin cfg0.N) (a : Fin 16) (b : Fin 1024) :
    iblk m c 4 t (ix2 a b) = V m c main_v2 (ix2 a b) := by
  have e := idx_facts t
  show V m c main_v2 (((cfg0.win 4).blk t).view.emb (ix2 a b)) = V m c main_v2 (ix2 a b)
  refine congrArg _ (funext fun ax => Fin.ext ?_)
  match ax with
  | ⟨0, _⟩ => show win0_4.index t (0 : Fin 2) * 16 + 1 * a.val = a.val; omega
  | ⟨1, _⟩ => show win0_4.index t (1 : Fin 2) * 1024 + 1 * b.val = b.val; omega

/-- The bias b2 is staged whole at every point. -/
theorem read5 (c : Dev nD) (t : Fin cfg0.N) (a : Fin 1) (b : Fin 1024) :
    iblk m c 5 t (ix2 a b) = V m c main_v5 (ix2 a b) := by
  have e := idx_facts t
  show V m c main_v5 (((cfg0.win 5).blk t).view.emb (ix2 a b)) = V m c main_v5 (ix2 a b)
  refine congrArg _ (funext fun ax => Fin.ext ?_)
  match ax with
  | ⟨0, _⟩ => show win0_5.index t (0 : Fin 2) * 1 + 1 * a.val = a.val; omega
  | ⟨1, _⟩ => show win0_5.index t (1 : Fin 2) * 1024 + 1 * b.val = b.val; omega

/-- Entry (p, c) of point t's output block sits at row t · 1024 + p, channel c of the output array. -/
theorem emb6 (t : Fin cfg0.N) (p c : Fin 1024) :
    ((cfg0.win 6).blk t).view.emb (ix2 p c) = ix2 (blockRow t p) c := by
  have e := idx_facts t
  refine funext fun ax => Fin.ext ?_
  match ax with
  | ⟨0, _⟩ => show win0_6.index t (0 : Fin 2) * 1024 + 1 * p.val = t.val * 1024 + p.val; omega
  | ⟨1, _⟩ => show win0_6.index t (1 : Fin 2) * 1024 + 1 * c.val = c.val; omega

/-! ## What a point writes back -/

/-- Point t writes back rows t · 1024 … of `rowsOf` of the arrays the region finds. -/
theorem flushed_eq (c : Dev nD) (t : Fin cfg0.N) :
    (dats m 0 c).flushed 6 t = ((cfg0.win 6).blk t).view.read (Elt Ideal)
      (rowsOf (V m c main_v0) (V m c main_v1) (V m c main_v3) (V m c main_v4) (V m c main_v2) (V m c main_v5)) := by
  show (cfg0.win 6).cut (grid0.coords t) ((dats m 0 c).after 6 t) = _
  rw [after0_6]
  unfold out0_6
  rw [View.canon_unit_zero hz]
  simp only [View.ld_unit_zero (S := S1024x1024) hz, View.ld_unit_zero (S := S1024x16) hz, View.ld_unit_zero (S := S1x16) hz,
    View.ld_unit_zero (S := S16x1024) hz, View.ld_unit_zero (S := S1x1024) hz]
  funext j
  obtain ⟨p, q, rfl⟩ : ∃ (p q : Fin 1024), j = ix2 p q := ⟨j 0, j 1, eq_ix2 j⟩
  refine (Body.stored_apply (iblk m c 0 t) (iblk m c 1 t) (iblk m c 2 t) (iblk m c 3 t) (iblk m c 4 t) (iblk m c 5 t) p q).trans ?_
  show _ = rowsOf (V m c main_v0) (V m c main_v1) (V m c main_v3) (V m c main_v4) (V m c main_v2) (V m c main_v5)
    (((cfg0.win 6).blk t).view.emb (ix2 p q))
  rw [emb6]
  simp only [read0, read1, read2, read3, read4, read5]
  rfl

/-! ## The whole array -/

/-- An index of the output array is in point t's block iff each coordinate is in the block's range on its axis. -/
theorem mem_blk (t : Fin cfg0.N) (i : S32768x1024.Idx) :
    i ∈ ((cfg0.win 6).blk t).view.set ↔ ∀ a : Fin 2, win0_6.index t a * S1024x1024.size a ≤ (i a).val
      ∧ (i a).val < win0_6.index t a * S1024x1024.size a + S1024x1024.size a := by
  show i ∈ ((View.whole main_v6).slice (win0_6.rect t)).set ↔ _
  rw [View.set_slice_whole, Rect.mem_set_unit]
  exact Iff.rfl

/-- Every entry of the output array is written back by the point that handles its row: point r / 1024. -/
theorem cover (i : S32768x1024.Idx) :
    ∃ t : Fin cfg0.N, (cfg0.win 6).flush t = true ∧ i ∈ ((cfg0.win 6).blk t).view.set := by
  have hi0 : (i 0).val < 32768 := idx2_lt0 i
  have hi1 : (i 1).val < 1024 := idx2_lt1 i
  have hN : grid0.N = 32 := N_0
  let t : Fin cfg0.N := ⟨(i 0).val / 1024, by show (i 0).val / 1024 < grid0.N; omega⟩
  have ht : t.val = (i 0).val / 1024 := rfl
  obtain ⟨-, -, e0, e1, -⟩ := idx_facts t
  refine ⟨t, flush0_6 t, ?_⟩
  rw [mem_blk]
  intro a
  match a with
  | ⟨0, _⟩ =>
    show win0_6.index t (0 : Fin 2) * 1024 ≤ (i 0).val ∧ (i 0).val < win0_6.index t (0 : Fin 2) * 1024 + 1024
    omega
  | ⟨1, _⟩ =>
    show win0_6.index t (1 : Fin 2) * 1024 ≤ (i 1).val ∧ (i 1).val < win0_6.index t (1 : Fin 2) * 1024 + 1024
    omega

/-- The output array after the region: `rowsOf` of the arrays the region finds. -/
theorem final (c : Dev nD) : (dats m 0 c).arrAt 6 cfg0.N
    = rowsOf (V m c main_v0) (V m c main_v1) (V m c main_v3) (V m c main_v4) (V m c main_v2) (V m c main_v5) :=
  (dats m 0 c).arrAt_eq_of_cover 6 _ (fun t _ => flushed_eq m c t) cover

end Cert.KernelIdeal.Blocks

end
-- ==== Proof.Entry.lean ====
/-
  What the region finds in the arrays its windows stage, as functions of the argument arrays: the tokens laid out as
  32768 rows (row r is token (r / 4096, r % 4096)), the two weight matrices unchanged (a change of float format is
  the identity on extended reals), and each bias as a one-row matrix.
-/
import proofs.«168112_j65481071407276_2_alg».proof.Proof.Gen.KernelIdeal.Frame
import proofs.«168112_j65481071407276_2_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The arrays at the region's entry -/

/-- The tokens as rows: x reshaped from [8, 4096, 1024] to [32768, 1024]. -/
theorem V_rows (c : Dev nD) : (V m c main_v0 : S32768x1024.Idx → EReal)
    = shapeCast S32768x1024 (m ((c : Thread nD τ).loc main_arg0)) shapeCasts_S8x4096x1024_S32768x1024 := by
  show StableHlo.after hostOps0 (fun b => m (c, b)) (Proc.devRef .tc main_v0) = _
  after_results; rfl

/-- W1 in the narrower float format: the same extended reals. -/
theorem V_w1 (c : Dev nD) : (V m c main_v1 : S1024x16.Idx → EReal) = m ((c : Thread nD τ).loc main_arg1) := by
  show StableHlo.after hostOps0 (fun b => m (c, b)) (Proc.devRef .tc main_v1) = _
  after_results; rfl

/-- W2 in the narrower float format: the same extended reals. -/
theorem V_w2 (c : Dev nD) : (V m c main_v2 : S16x1024.Idx → EReal) = m ((c : Thread nD τ).loc main_arg4) := by
  show StableHlo.after hostOps0 (fun b => m (c, b)) (Proc.devRef .tc main_v2) = _
  after_results; rfl

/-- b1 as a one-row matrix. -/
theorem V_b1 (c : Dev nD) : (V m c main_v3 : S1x16.Idx → EReal)
    = shapeCast S1x16 (m ((c : Thread nD τ).loc main_arg2)) shapeCasts_S16_S1x16 := by
  show StableHlo.after hostOps0 (fun b => m (c, b)) (Proc.devRef .tc main_v3) = _
  after_results; rfl

/-- θ as a one-row matrix. -/
theorem V_theta (c : Dev nD) : (V m c main_v4 : S1x16.Idx → EReal)
    = shapeCast S1x16 (m ((c : Thread nD τ).loc main_arg3)) shapeCasts_S16_S1x16 := by
  show StableHlo.after hostOps0 (fun b => m (c, b)) (Proc.devRef .tc main_v4) = _
  after_results; rfl

/-- b2 as a one-row matrix. -/
theorem V_b2 (c : Dev nD) : (V m c main_v5 : S1x1024.Idx → EReal)
    = shapeCast S1x1024 (m ((c : Thread nD τ).loc main_arg5)) shapeCasts_S1024_S1x1024 := by
  show StableHlo.after hostOps0 (fun b => m (c, b)) (Proc.devRef .tc main_v5) = _
  after_results; rfl

/-! ## Rows and tokens -/

/-- Row `b · 4096 + s` is token `(b, s)`. -/
def tokenRow (b : Fin 8) (s : Fin 4096) : Fin 32768 := ⟨b.val * 4096 + s.val, by have := b.isLt; have := s.isLt; omega⟩

theorem rowBatch_tokenRow (b : Fin 8) (s : Fin 4096) : Cert.Ffn.rowBatch (tokenRow b s) = b :=
  Fin.ext (by show (b.val * 4096 + s.val) / 4096 = b.val; have := s.isLt; omega)
theorem rowPos_tokenRow (b : Fin 8) (s : Fin 4096) : Cert.Ffn.rowPos (tokenRow b s) = s :=
  Fin.ext (by show (b.val * 4096 + s.val) % 4096 = s.val; have := s.isLt; omega)

/-- The tokens laid out as rows, read at (r, d): token (r / 4096, r % 4096), channel d. -/
theorem rows_apply (X : S8x4096x1024.Idx → EReal) (r : Fin 32768) (d : Fin 1024) :
    shapeCast S32768x1024 X shapeCasts_S8x4096x1024_S32768x1024 (ix2 r d)
      = X (ix3 (Cert.Ffn.rowBatch r) (Cert.Ffn.rowPos r) d) :=
  shapeCast_apply X _ _ _ (by
    rw [Shape.rowMajor_val_three, Shape.rowMajor_val_two]
    show ((r.val / 4096) * 4096 + r.val % 4096) * 1024 + d.val = r.val * 1024 + d.val
    have := Nat.div_add_mod r.val 4096
    omega)

/-- The rows gathered back into [8, 4096, 1024], read at (b, s, c): row b · 4096 + s, channel c. -/
theorem tokens_apply (Y : S32768x1024.Idx → EReal) (b : Fin 8) (s : Fin 4096) (c : Fin 1024) :
    shapeCast S8x4096x1024 Y shapeCasts_S32768x1024_S8x4096x1024 (ix3 b s c) = Y (ix2 (tokenRow b s) c) :=
  shapeCast_apply Y _ _ _ (by
    rw [Shape.rowMajor_val_three, Shape.rowMajor_val_two]
    show (b.val * 4096 + s.val) * 1024 + c.val = (b.val * 4096 + s.val) * 1024 + c.val
    rfl)

/-- Over the tokens as rows and the biases as one-row matrices, the row form of the token function is the
    specification's, at the token the row stands for. -/
theorem rowToken_eq (X : S8x4096x1024.Idx → EReal) (W1 : S1024x16.Idx → EReal) (B1 TH : S16.Idx → EReal)
    (W2 : S16x1024.Idx → EReal) (B2 : S1024.Idx → EReal) (r : Fin 32768) (ch : Fin 1024) :
    Cert.Ffn.rowToken (shapeCast S32768x1024 X shapeCasts_S8x4096x1024_S32768x1024) W1
        (shapeCast S1x16 B1 shapeCasts_S16_S1x16) (shapeCast S1x16 TH shapeCasts_S16_S1x16) W2
        (shapeCast S1x1024 B2 shapeCasts_S1024_S1x1024) r ch
      = Cert.Ffn.token X W1 B1 TH W2 B2 (Cert.Ffn.rowBatch r) (Cert.Ffn.rowPos r) ch := by
  unfold Cert.Ffn.rowToken Cert.Ffn.token Cert.Ffn.hidden
  simp only [rows_apply, shapeCast_a_1a_apply]

end Cert.KernelIdeal.Entry

end
-- ==== Proof.KernelRun.lean ====
/-
  The kernel's run, with its result named: the array it returns is the specification's `out` of the arguments.

  The region's output array holds `rowsOf` of the arrays the region finds; those are the tokens as rows, the weights
  unchanged and the biases as one-row matrices, so the output array is the specification read at rows (`outRows`);
  the one operation after the region gathers the rows back into (batch, position, channel), and row b · 4096 + s is
  token (b, s).
-/
import proofs.«168112_j65481071407276_2_alg».proof.Proof.Blocks
import proofs.«168112_j65481071407276_2_alg».proof.Proof.Entry

noncomputable section

namespace Cert.KernelIdeal.KernelValue

open Cert.KernelIdeal Cert.KernelIdeal.Gen Idealize.ShloMosaic Idealize.ShloMosaic.TcCoe Idealize.SL.Sem
open Idealize.ShloMosaic.StableHlo Idealize.ShloMosaic.ValueIdx
open Cert.KernelIdeal.Blocks Cert.KernelIdeal.Entry

variable (m : (ℓ : Loc nD τ sig) → Buf (Elt Ideal) ℓ) (ρ : Dev nD → PrngReg)

/-- The region's output array in terms of the arguments: the specification read at rows. -/
theorem rows_eq (c : Dev nD) :
    rowsOf (V m c main_v0) (V m c main_v1) (V m c main_v3) (V m c main_v4) (V m c main_v2) (V m c main_v5)
      = Cert.Ffn.outRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [V_rows m c, V_w1 m c, V_w2 m c, V_b1 m c, V_theta m c, V_b2 m c]
  funext j
  exact rowToken_eq _ _ _ _ _ _ (j 0) (j 1)

/-- The one operation after the region gathers the output array's rows back into [8, 4096, 1024]. -/
theorem tail_eq (c : Dev nD) : Pipeline.afterTail₀ cfgs (dats m) 0 (V0 m) [hostOps1] c main_v7
    = shapeCast S8x4096x1024 ((dats m 0 c).arrAt 6 cfg0.N) shapeCasts_S32768x1024_S8x4096x1024 := by
  unfold Pipeline.afterTail₀
  show StableHlo.after hostOps1 _ (Proc.devRef .tc main_v7) = _
  after_results
  funext i
  exact congrArg (fun Y : S32768x1024.Idx → EReal => shapeCast S8x4096x1024 Y shapeCasts_S32768x1024_S8x4096x1024 i)
    (Pipeline.withArrays_arr spec0 launch0.win.arr_inj c (V0 m c) (fun w => (dats m 0 c).arrAt w cfg0.N) 6)

/-- The array the kernel's program returns is the specification's `out` of its arguments. -/
theorem result (c : Dev nD) : Pipeline.afterTail₀ cfgs (dats m) 0 (V0 m) [hostOps1] c main_v7
    = Cert.Ffn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [tail_eq, Blocks.final, rows_eq]
  funext i
  obtain ⟨b, s, ch, rfl⟩ : ∃ (b : Fin 8) (s : Fin 4096) (ch : Fin 1024), i = ix3 b s ch := ⟨i 0, i 1, i 2, eq_ix3 i⟩
  rw [tokens_apply]
  show Cert.Ffn.token _ _ _ _ _ _ (Cert.Ffn.rowBatch (tokenRow b s)) (Cert.Ffn.rowPos (tokenRow b s)) ch
    = Cert.Ffn.token _ _ _ _ _ _ b s ch
  rw [rowBatch_tokenRow, rowPos_tokenRow]

/-- Every weakly fair execution of the kernel's program terminates with its result at the specification's `out` of
    the arguments, and the arguments unchanged. -/
theorem run : θ_run defs (onTc (τ := τ) (main (F := Ideal))) ⟨m, fun _ => 0, ρ⟩ fun r => ∀ c : Dev nD,
      r.2.mem ((c.tc : Thread nD τ).loc main_v7) = Cert.Ffn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨
      ((h c).2 main_v7 (Pipeline.mem_restRefs_of main_v7 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KernelValue

end
-- ==== Proof.lean ====
/-
  A feed-forward block with a cosine nonlinearity, as a row-tiled kernel and as two einsums: the same function of
  the arguments over the extended reals.

  Both programs compute, for every token (b, s) and channel c,
      out[b, s, c] = Σ_q cos (max (Σ_d x[b, s, d] · W1[d, q] + b1[q], 0) + θ[q]) · W2[q, c] + b2[c]
  (`Cert.Ffn.out`, Proof/Spec.lean). The reference does so directly (Proof/RefSpec.lean: its contractions are these
  sums, its broadcasts re-index the biases). The kernel lays the 32768 tokens out as rows, row r being the token
  (r / 4096, r % 4096), and handles 1024 rows per grid point with the weights held whole: each point's stored block is
  the same expression at its rows (Proof/Body.lean: a product into a zero accumulator is the plain sum, a change of
  float format is the identity), the 32 blocks tile the row array (Proof/Blocks.lean), the arrays the region reads are
  the arguments re-laid (Proof/Entry.lean), and the last operation gathers the rows back (Proof/KernelRun.lean).
  The two sides are then the same finite sums in the same order, so no law beyond reading both at an index is
  needed, and in particular nothing needs the inputs to be finite: the precondition is never opened.
  The idealized kernel is the kernel's own text read over the extended reals (no rewrite was applied), and the three
  programs terminate without a fault and leave their arguments unchanged.
-/
import proofs.«168112_j65481071407276_2_alg».proof.Defs
import proofs.«168112_j65481071407276_2_alg».proof.Proof.Gen.Kernel
import proofs.«168112_j65481071407276_2_alg».proof.Proof.Gen.Kernel.Skeleton
import proofs.«168112_j65481071407276_2_alg».proof.Proof.Gen.Kernel.Launch
import proofs.«168112_j65481071407276_2_alg».proof.Proof.Gen.Kernel.Points
import proofs.«168112_j65481071407276_2_alg».proof.Proof.Gen.Kernel.Frame
import proofs.«168112_j65481071407276_2_alg».proof.Proof.Gen.KernelIdeal
import proofs.«168112_j65481071407276_2_alg».proof.Proof.Gen.KernelIdeal.Skeleton
import proofs.«168112_j65481071407276_2_alg».proof.Proof.Gen.KernelIdeal.Launch
import proofs.«168112_j65481071407276_2_alg».proof.Proof.Gen.KernelIdeal.Points
import proofs.«168112_j65481071407276_2_alg».proof.Proof.Gen.KernelIdeal.Frame
import proofs.«168112_j65481071407276_2_alg».proof.Proof.Gen.ReferenceIdeal
import proofs.«168112_j65481071407276_2_alg».proof.Proof.Gen.ReferenceIdeal.Run
import proofs.«168112_j65481071407276_2_alg».proof.Proof.Gen.ReferenceIdeal.Read
import proofs.«168112_j65481071407276_2_alg».proof.Proof.Gen.Pre_finite_inputs
import proofs.«168112_j65481071407276_2_alg».proof.Proof.RefSpec
import proofs.«168112_j65481071407276_2_alg».proof.Proof.KernelRun
import Idealize.ShloMosaic.Adequacy
import Idealize.ShloMosaic.Init

noncomputable section

namespace Cert.Proof

open Idealize.ShloMosaic Idealize.ShloMosaic.TcCoe Idealize.SL.Sem

/-- The kernel as printed terminates, faults nowhere and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From memories that agree on the arguments, both programs end with the specification's `out` of the arguments. -/
theorem algebraic : Cert.algebraic_KernelIdeal_ReferenceIdeal := by
  intro m ρ m' ρ' _ hagree
  refine ⟨fun c => Cert.Ffn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
